-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x128 : Shape := ⟨2, ![1024, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S2048x1024 .f32) (main_arg1 : FVec F S1024x128 .f32) (main_arg2 : FVec F S1024x128 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  main_v13
-- ==== Kernel.lean ====
abbrev S2048x1024 : Shape := ⟨2, ![2048, 1024]⟩
abbrev S1024x128 : Shape := ⟨2, ![1024, 128]⟩
abbrev S2048x1024x128 : Shape := ⟨3, ![2048, 1024, 128]⟩
abbrev S128x128 : Shape := ⟨2, ![128, 128]⟩
abbrev S128x128x128 : Shape := ⟨3, ![128, 128, 128]⟩
abbrev S128x128x1 : Shape := ⟨3, ![128, 128, 1]⟩
abbrev S1x128x128 : Shape := ⟨3, ![1, 128, 128]⟩
abbrev S2048x131072 : Shape := ⟨2, ![2048, 131072]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S1024x128, .f32⟩
  | .hbm, ⟨3, _⟩ => ⟨S2048x1024x128, .f32⟩
  | .hbm, ⟨4, _⟩ => ⟨S2048x131072, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128x128, .f32⟩
  | .local _ .vmem, ⟨7, _⟩ => ⟨S128x128x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  inb_S128x128x128_S128x128x128_0_0_0 : ∀ a, (![0, 0, 0] : Fin 3 → Nat) a + S128x128x128.size a ≤ S128x128x128.size a
  h_S128x128x128 : 0 < S128x128x128.numel
  shapeCasts_S2048x1024x128_S2048x131072 : S2048x1024x128.ShapeCasts S2048x131072
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S2048x1024.size a
  hwx0_0 : ∀ i : grid0.Coords, EltTy.bits .f32 = 32 ∨ (Rect.block (s := S2048x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x128.size a
  hwx0_2 : ∀ i : grid0.Coords, EltTy.bits .f32 = 32 ∨ (Rect.block (s := S1024x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x128.size a ≤ S2048x1024x128.size a
  hwx0_3 : ∀ i : grid0.Coords, EltTy.bits .f32 = 32 ∨ (Rect.block (s := S2048x1024x128) S128x128x128.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x128 : Shape := ⟨2, ![1024, 128]⟩
abbrev S2048x1024x1 : Shape := ⟨3, ![2048, 1024, 1]⟩
abbrev S1x1024x128 : Shape := ⟨3, ![1, 1024, 128]⟩
abbrev S2048x1024x128 : Shape := ⟨3, ![2048, 1024, 128]⟩
abbrev S2048x131072 : Shape := ⟨2, ![2048, 131072]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S1024x128, .f32⟩
  | .hbm, ⟨3, _⟩ => ⟨S2048x1024x1, .f32⟩
  | .hbm, ⟨4, _⟩ => ⟨S1x1024x128, .f32⟩
  | .hbm, ⟨5, _⟩ => ⟨S2048x1024x128, .f32⟩
  | .hbm, ⟨6, _⟩ => ⟨S2048x1024x128, .f32⟩
  | .hbm, ⟨7, _⟩ => ⟨S2048x1024x128, .f32⟩
  | .hbm, ⟨8, _⟩ => ⟨S1x1024x128, .f32⟩
  | .hbm, ⟨9, _⟩ => ⟨S2048x1024x128, .f32⟩
  | .hbm, ⟨10, _⟩ => ⟨S2048x1024x128, .f32⟩
  | .hbm, ⟨11, _⟩ => ⟨S2048x131072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S2048x1024_S2048x1024x1_0_1 : S2048x1024.BroadcastsInDim S2048x1024x1 (![0, 1] : Fin 2 → Fin S2048x1024x1.rank)
  bcast_S1024x128_S1x1024x128_1_2 : S1024x128.BroadcastsInDim S1x1024x128 (![1, 2] : Fin 2 → Fin S1x1024x128.rank)
  bcast_S2048x1024x1_S2048x1024x128_0_1_2 : S2048x1024x1.BroadcastsInDim S2048x1024x128 (![0, 1, 2] : Fin 3 → Fin S2048x1024x128.rank)
  bcast_S1x1024x128_S2048x1024x128_0_1_2 : S1x1024x128.BroadcastsInDim S2048x1024x128 (![0, 1, 2] : Fin 3 → Fin S2048x1024x128.rank)
  shapeCasts_S2048x1024x128_S2048x131072 : S2048x1024x128.ShapeCasts S2048x131072

variable [Facts₀]

class Facts : Prop extends Facts₀ where

variable [Facts]
-- ==== Proof.PerChannelAffine.lean ====
/-
  The value both programs compute, as one function of the three argument arrays.

  For x : [B, H], W : [H, D], b : [H, D] the result before the final flattening is the rank-3 array
      out[i, h, d] = x[i, h] · W[h, d] + b[h, d],
  a per-channel affine map: channel h scales the scalar x[i, h] by the row W[h, ·] and shifts it by the row
  b[h, ·]. Each entry is one product followed by one sum, in that order, of three entries of the arguments; the
  statement is made at any float instance, so nothing below depends on which numbers the floats are, and no
  algebraic law (hence no finiteness of the inputs) is ever needed to compare two programs that both compute it.
-/
import Idealize.ShloMosaic.Lib.ValueIdx

noncomputable section

namespace Cert.PerChannel

open Idealize.ShloMosaic Idealize.ShloMosaic.ValueIdx

variable {F : FTy → Type} [FloatOps F]

/-- out[i, h, d] = x[i, h] · W[h, d] + b[h, d], for any extents B, H, D. -/
def affine {B H D : Nat} (x : (⟨2, ![B, H]⟩ : Shape).Idx → Elt F .f32) (w b : (⟨2, ![H, D]⟩ : Shape).Idx → Elt F .f32) :
    (⟨3, ![B, H, D]⟩ : Shape).Idx → Elt F .f32 :=
  fun i => FloatOps.addf (FloatOps.mulf (x (ix2 (n0 := B) (n1 := H) (i 0) (i 1))) (w (ix2 (n0 := H) (n1 := D) (i 1) (i 2))))
    (b (ix2 (n0 := H) (n1 := D) (i 1) (i 2)))

/-- The same, at an index given by its three coordinates. -/
theorem affine_ix3 {B H D : Nat} (x : (⟨2, ![B, H]⟩ : Shape).Idx → Elt F .f32) (w b : (⟨2, ![H, D]⟩ : Shape).Idx → Elt F .f32)
    (p : Fin B) (q : Fin H) (d : Fin D) :
    affine x w b (ix3 p q d) = FloatOps.addf (FloatOps.mulf (x (ix2 p q)) (w (ix2 q d))) (b (ix2 q d)) := rfl

end Cert.PerChannel

end
-- ==== Proof.BlockBody.lean ====
/-
  What the kernel body stores at one grid point, as a function of the three blocks it loads.

  The body loads a [128, 128] block of x, of W and of b. It views the x block as [128, 128, 1] and repeats it along
  a new last axis, views the W and b blocks as [1, 128, 128] and repeats them along a new first axis, multiplies the
  first two and adds the third, entry by entry. Read at (p, q, d), the repeated x block is the block's entry (p, q)
  and the repeated W and b blocks are their entries (q, d): the stored [128, 128, 128] block is the per-channel
  affine map of the three loaded blocks.
-/
import proofs.«112208_j81106162418203_2_alg».proof.Proof.Gen.KernelIdeal.Skeleton
import proofs.«112208_j81106162418203_2_alg».proof.Proof.PerChannelAffine
import Idealize.ShloMosaic.Lib.Pipeline.Value

noncomputable section

namespace Cert.KernelIdeal.BlockBody

open Idealize.ShloMosaic Idealize.ShloMosaic.ValueIdx Cert.KernelIdeal Cert.KernelIdeal.Gen Cert.PerChannel

variable {F : FTy → Type} [FloatOps F]

/-- A [128, 128] array viewed as [128, 128, 1] and repeated 128 times along the last axis: entry (p, q, d) is the
    array's entry (p, q). The view keeps the row-major position, p·128 + q = (p·128 + q)·1 + 0, and the repetition
    reads position 0 of the unit axis. -/
theorem repeat_last {α : Type} (x : S128x128.Idx → α) (h1 : S128x128.ShapeCasts S128x128x1)
    (h2 : S128x128x1.Broadcasts S128x128x128) (p q d : Fin 128) :
    broadcastTo S128x128x128 (shapeCast S128x128x1 x h1) h2 (ix3 p q d) = x (ix2 p q) :=
  (broadcastTo_apply (shapeCast S128x128x1 x h1) h2 (ix3 p q d) (ix3 p q (0 : Fin 1)) (fun a => match a with
    | ⟨0, _⟩ => by show p.val = if (128 : Nat) = 1 then 0 else p.val; rw [if_neg (by decide)]
    | ⟨1, _⟩ => by show q.val = if (128 : Nat) = 1 then 0 else q.val; rw [if_neg (by decide)]
    | ⟨2, _⟩ => by show 0 = if (1 : Nat) = 1 then 0 else d.val; rw [if_pos rfl])).trans
  (shapeCast_apply x h1 (ix3 p q (0 : Fin 1)) (ix2 p q) (by
    rw [Shape.rowMajor_val_two, Shape.rowMajor_val_three]
    show p.val * 128 + q.val = (p.val * 128 + q.val) * 1 + 0
    omega))

/-- A [128, 128] array viewed as [1, 128, 128] and repeated 128 times along the first axis: entry (p, q, d) is the
    array's entry (q, d). The view keeps the row-major position, q·128 + d = (0·128 + q)·128 + d, and the repetition
    reads position 0 of the unit axis. -/
theorem repeat_first {α : Type} (x : S128x128.Idx → α) (h1 : S128x128.ShapeCasts S1x128x128)
    (h2 : S1x128x128.Broadcasts S128x128x128) (p q d : Fin 128) :
    broadcastTo S128x128x128 (shapeCast S1x128x128 x h1) h2 (ix3 p q d) = x (ix2 q d) :=
  (broadcastTo_apply (shapeCast S1x128x128 x h1) h2 (ix3 p q d) (ix3 (0 : Fin 1) q d) (fun a => match a with
    | ⟨0, _⟩ => by show 0 = if (1 : Nat) = 1 then 0 else p.val; rw [if_pos rfl]
    | ⟨1, _⟩ => by show q.val = if (128 : Nat) = 1 then 0 else q.val; rw [if_neg (by decide)]
    | ⟨2, _⟩ => by show d.val = if (128 : Nat) = 1 then 0 else d.val; rw [if_neg (by decide)])).trans
  (shapeCast_apply x h1 (ix3 (0 : Fin 1) q d) (ix2 q d) (by
    rw [Shape.rowMajor_val_two, Shape.rowMajor_val_three]
    show q.val * 128 + d.val = (0 * 128 + q.val) * 128 + d.val
    omega))

/-- The block the body stores is the per-channel affine map of the three blocks it loads:
    stored[p, q, d] = xblock[p, q] · Wblock[q, d] + bblock[q, d]. -/
theorem stored_eq (x0 x1 x2 : Vec F S128x128 .f32) :
    k0_pay1 x0 x1 x2 = affine (B := 128) (H := 128) (D := 128) x0 x1 x2 := by
  funext j
  obtain ⟨p, q, d, rfl⟩ : ∃ (p q d : Fin 128), j = ix3 p q d := ⟨j 0, j 1, j 2, eq_ix3 j⟩
  rw [affine_ix3]
  unfold k0_pay1
  show FloatOps.addf (FloatOps.mulf (broadcastTo S128x128x128 (shapeCast S128x128x1 x0 _) _ (ix3 p q d))
      (broadcastTo S128x128x128 (shapeCast S1x128x128 x1 _) _ (ix3 p q d)))
    (broadcastTo S128x128x128 (shapeCast S1x128x128 x2 _) _ (ix3 p q d)) = _
  rw [repeat_last, repeat_first, repeat_first]

end Cert.KernelIdeal.BlockBody

end
-- ==== Proof.OutputArray.lean ====
/-
  The rank-3 array the kernel leaves, as one function of the argument arrays.

  The grid has 8 × 16 points (j, i): point (j, i) reads the block of x at block row i and block column j, the
  blocks of W and of b at block row j, and writes the block of the [2048, 1024, 128] output at block position
  (i, j, 0); every block has 128 entries per axis. So an element of an input block sits in its array exactly where
  the per-channel affine map, evaluated at the corresponding element of the output block, reads that array:
  what point (j, i) writes back is the restriction of the whole-array affine map to its block. The 128 output blocks
  tile the array (the block covering (r, h, d) is the one at (r / 128, h / 128, 0)), hence after the last
  write-back the array is the affine map of the arguments everywhere.
-/
import proofs.«112208_j81106162418203_2_alg».proof.Proof.Gen.KernelIdeal.Frame
import proofs.«112208_j81106162418203_2_alg».proof.Proof.BlockBody
import Idealize.ShloMosaic.Lib.Pipeline.Value

noncomputable section

namespace Cert.KernelIdeal.OutputArray

open Cert.KernelIdeal Cert.KernelIdeal.Gen Idealize.ShloMosaic Idealize.ShloMosaic.TcCoe Idealize.SL.Sem
open Idealize.ShloMosaic.ValueIdx Cert.PerChannel
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The per-channel affine map of the three argument arrays as the kernel finds them. -/
abbrev whole (c : Dev nD) : S2048x1024x128.Idx → Elt F .f32 :=
  affine (B := 2048) (H := 1024) (D := 128) (V m c main_arg0) (V m c main_arg1) (V m c main_arg2)

/-- The block positions of the four operands at a grid point, decided over the 128 points: x's block sits at the
    output block's first two positions, W's and b's at (the output block's second position, 0), and the output
    block's third position is 0. -/
theorem block_positions : ∀ t : Fin cfg0.N,
    win0_0.index t (0 : Fin 2) = win0_3.index t (0 : Fin 3)
    ∧ win0_0.index t (1 : Fin 2) = win0_3.index t (1 : Fin 3)
    ∧ win0_1.index t (0 : Fin 2) = win0_3.index t (1 : Fin 3)
    ∧ win0_1.index t (1 : Fin 2) = win0_3.index t (2 : Fin 3)
    ∧ win0_2.index t (0 : Fin 2) = win0_3.index t (1 : Fin 3)
    ∧ win0_2.index t (1 : Fin 2) = win0_3.index t (2 : Fin 3)
    ∧ win0_3.index t (2 : Fin 3) = 0 :=
  (by decide +kernel : ∀ t : Fin grid0.N, _)

/-- Every block position (i, j, 0) of the output, i < 16 and j < 8, is some grid point's. -/
theorem block_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- What grid point t writes back is the whole-array affine map restricted to t's output block. -/
theorem written_eq (c : Dev nD) (t : Fin cfg0.N) :
    (dats m 0 c).flushed 3 t = ((cfg0.win 3).blk t).view.read (Elt F) (whole m c) := by
  show (cfg0.win 3).cut (grid0.coords t) ((dats m 0 c).after 3 t) = _
  rw [after0_3]
  unfold out0_3
  rw [View.canon_unit_zero zero3]
  simp only [View.ld_unit_zero (S := S128x128) zero2]
  rw [BlockBody.stored_eq]
  obtain ⟨e0, e1, e2, e3, e4, e5, e6⟩ := block_positions t
  funext j
  obtain ⟨p, q, d, rfl⟩ : ∃ (p q d : Fin 128), j = ix3 p q d := ⟨j 0, j 1, j 2, eq_ix3 j⟩
  show FloatOps.addf (FloatOps.mulf (V m c main_arg0 (((cfg0.win 0).blk t).view.emb (ix2 p q)))
        (V m c main_arg1 (((cfg0.win 1).blk t).view.emb (ix2 q d))))
      (V m c main_arg2 (((cfg0.win 2).blk t).view.emb (ix2 q d)))
    = FloatOps.addf (FloatOps.mulf
        (V m c main_arg0 (ix2 (n0 := 2048) (n1 := 1024) (((cfg0.win 3).blk t).view.emb (ix3 p q d) 0) (((cfg0.win 3).blk t).view.emb (ix3 p q d) 1)))
        (V m c main_arg1 (ix2 (n0 := 1024) (n1 := 128) (((cfg0.win 3).blk t).view.emb (ix3 p q d) 1) (((cfg0.win 3).blk t).view.emb (ix3 p q d) 2))))
      (V m c main_arg2 (ix2 (n0 := 1024) (n1 := 128) (((cfg0.win 3).blk t).view.emb (ix3 p q d) 1) (((cfg0.win 3).blk t).view.emb (ix3 p q d) 2)))
  have h0 : ((cfg0.win 0).blk t).view.emb (ix2 p q)
      = ix2 (n0 := 2048) (n1 := 1024) (((cfg0.win 3).blk t).view.emb (ix3 p q d) 0) (((cfg0.win 3).blk t).view.emb (ix3 p q d) 1) := by
    funext a; apply Fin.ext
    match a with
    | ⟨0, _⟩ => show win0_0.index t (0 : Fin 2) * 128 + 1 * p.val = win0_3.index t (0 : Fin 3) * 128 + 1 * p.val; omega
    | ⟨1, _⟩ => show win0_0.index t (1 : Fin 2) * 128 + 1 * q.val = win0_3.index t (1 : Fin 3) * 128 + 1 * q.val; omega
  have h1 : ((cfg0.win 1).blk t).view.emb (ix2 q d)
      = ix2 (n0 := 1024) (n1 := 128) (((cfg0.win 3).blk t).view.emb (ix3 p q d) 1) (((cfg0.win 3).blk t).view.emb (ix3 p q d) 2) := by
    funext a; apply Fin.ext
    match a with
    | ⟨0, _⟩ => show win0_1.index t (0 : Fin 2) * 128 + 1 * q.val = win0_3.index t (1 : Fin 3) * 128 + 1 * q.val; omega
    | ⟨1, _⟩ => show win0_1.index t (1 : Fin 2) * 128 + 1 * d.val = win0_3.index t (2 : Fin 3) * 128 + 1 * d.val; omega
  have h2 : ((cfg0.win 2).blk t).view.emb (ix2 q d)
      = ix2 (n0 := 1024) (n1 := 128) (((cfg0.win 3).blk t).view.emb (ix3 p q d) 1) (((cfg0.win 3).blk t).view.emb (ix3 p q d) 2) := by
    funext a; apply Fin.ext
    match a with
    | ⟨0, _⟩ => show win0_2.index t (0 : Fin 2) * 128 + 1 * q.val = win0_3.index t (1 : Fin 3) * 128 + 1 * q.val; omega
    | ⟨1, _⟩ => show win0_2.index t (1 : Fin 2) * 128 + 1 * d.val = win0_3.index t (2 : Fin 3) * 128 + 1 * d.val; omega
  rw [h0, h1, h2]

/-- An index of the output array is in point t's block iff each coordinate is within the block's 128 positions on
    its axis. -/
theorem mem_block (t : Fin cfg0.N) (i : S2048x1024x128.Idx) :
    i ∈ ((cfg0.win 3).blk t).view.set ↔ ∀ a : Fin 3, win0_3.index t a * S128x128x128.size a ≤ (i a).val
      ∧ (i a).val < win0_3.index t a * S128x128x128.size a + S128x128x128.size a := by
  show i ∈ ((View.whole main_v0).slice (win0_3.rect t)).set ↔ _
  rw [View.set_slice_whole, Rect.mem_set_unit]
  exact Iff.rfl

/-- The output blocks cover the array: (r, h, d) lies in the block at position (r / 128, h / 128, 0). -/
theorem covered (i : S2048x1024x128.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  have hi2 : (i 2).val < 128 := (i 2).isLt
  obtain ⟨t, ht⟩ := block_onto ⟨(i 0).val / 128, by omega⟩ ⟨(i 1).val / 128, by omega⟩
  have q0 : win0_3.index t (0 : Fin 3) = (i 0).val / 128 := congrFun ht 0
  have q1 : win0_3.index t (1 : Fin 3) = (i 1).val / 128 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 128 ≤ (i 1).val ∧ (i 1).val < win0_3.index t (1 : Fin 3) * 128 + 128; omega
  | ⟨2, _⟩ => show win0_3.index t (2 : Fin 3) * 128 ≤ (i 2).val ∧ (i 2).val < win0_3.index t (2 : Fin 3) * 128 + 128; omega

/-- After the last write-back the output array is the per-channel affine map of the argument arrays as launched. -/
theorem array_eq (c : Dev nD) :
    (dats m 0 c).arrAt 3 cfg0.N = affine (B := 2048) (H := 1024) (D := 128) (m ((c : Thread nD τ).loc main_arg0))
      (m ((c : Thread nD τ).loc main_arg1)) (m ((c : Thread nD τ).loc main_arg2)) :=
  (dats m 0 c).arrAt_eq_of_cover 3 (whole m c) (fun t _ => written_eq m c t) covered

end Cert.KernelIdeal.OutputArray

end
-- ==== Proof.KernelValue.lean ====
/-
  The kernel program's result: the run of its one region followed by the flattening of the last two axes.

  After the region the rank-3 output array holds the per-channel affine map of the arguments; the one host
  operation after the region reads that array and writes its row-major flattening [2048, 1024·128] into the result
  buffer, which no grid point touches. So the result is the flattening of the affine map, and the three argument
  arrays, staged but never written back, are as launched.
-/
import proofs.«112208_j81106162418203_2_alg».proof.Proof.OutputArray
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo Cert.PerChannel
open Idealize.ShloMosaic.Pipeline (Dat)

variable {F : FTy → Type} [FloatOps F]
variable (m : (ℓ : Loc nD τ sig) → Buf (Elt F) ℓ) (ρ : Dev nD → PrngReg)

/-- The flattening of the per-channel affine map of the arguments as launched. -/
abbrev flat (c : Dev nD) : S2048x131072.Idx → Elt F .f32 :=
  shapeCast S2048x131072 (affine (B := 2048) (H := 1024) (D := 128) (m ((c : Thread nD τ).loc main_arg0))
    (m ((c : Thread nD τ).loc main_arg1)) (m ((c : Thread nD τ).loc main_arg2))) Facts₀.shapeCasts_S2048x1024x128_S2048x131072

/-- The result buffer after the host line that follows the region: the flattening of the region's output array. -/
theorem tail_eq (c : Dev nD) :
    Pipeline.afterTail₀ cfgs (dats m) 0 (V0 m) [hostOps1] c main_v1 = flat m c := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = affine (B := 2048) (H := 1024) (D := 128) (m ((c : Thread nD τ).loc main_arg0)) (m ((c : Thread nD τ).loc main_arg1))
        (m ((c : Thread nD τ).loc main_arg2)) :=
    (Pipeline.withArrays_arr spec0 launch0.win.arr_inj c _ _ 3).trans (OutputArray.array_eq m c)
  rw [hw]
  rfl

/-- Every weakly fair execution of the kernel program terminates with the result buffer at the flattened affine map of
    the arguments and the arguments unchanged: the generated run of the region and the host line after it, with the
    result buffer (which is no operand of the region) read off the host line and the arguments off their windows. -/
theorem run : θ_run defs (onTc (τ := τ) (main (F := F))) ⟨m, fun _ => 0, ρ⟩ fun r => ∀ c : Dev nD,
      r.2.mem ((c.tc : Thread nD τ).loc main_v1) = flat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.KernelValue

end
-- ==== Proof.RefValue.lean ====
/-
  The reference's result, read index by index.

  The reference repeats x along a new last axis and W, b along a new first axis (each in two steps: a unit axis is
  added, then stretched), multiplies, adds, and flattens the last two axes. Composing the index maps of the four
  repetitions, entry (i, h, d) of the rank-3 array before the flattening reads x at (i, h) and W, b at (h, d): it
  is the per-channel affine map of the arguments.
-/
import proofs.«112208_j81106162418203_2_alg».proof.Proof.Gen.ReferenceIdeal.Read
import proofs.«112208_j81106162418203_2_alg».proof.Proof.PerChannelAffine

noncomputable section

namespace Cert.ReferenceIdeal.RefValue

open Idealize.ShloMosaic Idealize.ShloMosaic.ValueIdx Cert.ReferenceIdeal Cert.ReferenceIdeal.Gen Cert.ReferenceIdeal.Read
  Cert.PerChannel

variable {F : FTy → Type} [FloatOps F]

/-- The rank-3 array the reference flattens is out[i, h, d] = x[i, h] · W[h, d] + b[h, d]. -/
theorem unflattened_eq (x0 : S2048x1024.Idx → Elt F .f32) (x1 x2 : S1024x128.Idx → Elt F .f32) :
    val_main_v7 (F := F) x0 x1 x2 = affine (B := 2048) (H := 1024) (D := 128) x0 x1 x2 := by
  funext i
  have e0 : idx_main_v0 (idx_main_v2 i) = ix2 (n0 := 2048) (n1 := 1024) (i 0) (i 1) :=
    funext fun a => Fin.ext (by match a with | ⟨0, _⟩ => rfl | ⟨1, _⟩ => rfl)
  have e1 : idx_main_v1 (idx_main_v3 i) = ix2 (n0 := 1024) (n1 := 128) (i 1) (i 2) :=
    funext fun a => Fin.ext (by match a with | ⟨0, _⟩ => rfl | ⟨1, _⟩ => rfl)
  have e2 : idx_main_v5 (idx_main_v6 i) = ix2 (n0 := 1024) (n1 := 128) (i 1) (i 2) :=
    funext fun a => Fin.ext (by match a with | ⟨0, _⟩ => rfl | ⟨1, _⟩ => rfl)
  rw [val_main_v7_apply, val_main_v4_apply, val_main_v2_apply, val_main_v0_apply, val_main_v3_apply, val_main_v1_apply,
    val_main_v6_apply, val_main_v5_apply, e0, e1, e2]
  rfl

/-- The reference's result is that array with its last two axes flattened. -/
theorem result_eq (x0 : S2048x1024.Idx → Elt F .f32) (x1 x2 : S1024x128.Idx → Elt F .f32) :
    val_main_v8 (F := F) x0 x1 x2
      = shapeCast S2048x131072 (affine (B := 2048) (H := 1024) (D := 128) x0 x1 x2) Facts₀.shapeCasts_S2048x1024x128_S2048x131072 := by
  unfold val_main_v8
  rw [unflattened_eq]

end Cert.ReferenceIdeal.RefValue

end
-- ==== Proof.lean ====
/-
  Kernel and reference compute the same array: out[i, h·128 + d] = x[i, h] · W[h, d] + b[h, d].

  The kernel tiles the rank-3 array out3[i, h, d] = x[i, h] · W[h, d] + b[h, d] of shape [2048, 1024, 128] into
  128 blocks of 128 × 128 × 128, computes each block from a block of x and the matching blocks of W and b, and a host
  line flattens the last two axes. The reference builds out3 whole by repeating x along a new last axis and W, b
  along a new first axis, and flattens it the same way. Entry by entry both are ONE product followed by ONE sum of
  the same three entries of the arguments, so the two results are equal as written, at any reading of the floats:
  no algebraic law joins the two sides, and the finiteness of the inputs is never used.

  The pieces: PerChannelAffine (the function out3 of the arguments), BlockBody (what a grid point stores is out3 of
  its three loaded blocks), OutputArray (the blocks tile the array, so the region leaves out3 of the arguments),
  KernelValue (the host line after the region flattens it: the kernel program's run), RefValue (the reference's
  rank-3 array is out3 of the arguments). The three frames are the generated frame runs (the reference's is its
  generated run with the result dropped), and the idealized kernel is the kernel's own text read at the extended
  reals (no rewrite was applied), so that claim is trivial.
-/
import proofs.«112208_j81106162418203_2_alg».proof.Defs
import proofs.«112208_j81106162418203_2_alg».proof.Proof.Gen.Kernel
import proofs.«112208_j81106162418203_2_alg».proof.Proof.Gen.Kernel.Frame
import proofs.«112208_j81106162418203_2_alg».proof.Proof.Gen.KernelIdeal
import proofs.«112208_j81106162418203_2_alg».proof.Proof.Gen.KernelIdeal.Frame
import proofs.«112208_j81106162418203_2_alg».proof.Proof.Gen.ReferenceIdeal
import proofs.«112208_j81106162418203_2_alg».proof.Proof.Gen.ReferenceIdeal.Run
import proofs.«112208_j81106162418203_2_alg».proof.Proof.Gen.ReferenceIdeal.Read
import proofs.«112208_j81106162418203_2_alg».proof.Proof.Gen.Pre_finite_inputs
import proofs.«112208_j81106162418203_2_alg».proof.Proof.KernelValue
import proofs.«112208_j81106162418203_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on x, W and b, end with the flattening of
    out3[i, h, d] = x[i, h] · W[h, d] + b[h, d]: the kernel program by its run (KernelValue), the reference because
    the rank-3 array it flattens is out3 of its arguments (RefValue), which are the kernel's. -/
theorem algebraic : Cert.algebraic_KernelIdeal_ReferenceIdeal := by
  intro m ρ m' ρ' _ hagree
  refine ⟨fun c => Cert.KernelIdeal.KernelValue.flat m c, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
